-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S32000x4096 : Shape := ⟨2, ![32000, 4096]⟩
abbrev S16x4096 : Shape := ⟨2, ![16, 4096]⟩
abbrev S32000x16 : Shape := ⟨2, ![32000, 16]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S32000x4096 : S_.BroadcastsInDim S32000x4096 (![] : Fin 0 → Fin S32000x4096.rank)
  reducesTo_S32000x4096_S_d0_1 : S32000x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S32000x16 : S_.BroadcastsInDim S32000x16 (![] : Fin 0 → Fin S32000x16.rank)
  reducesTo_S32000x16_S_d0_1 : S32000x16.ReducesTo [0, 1] S_

variable [Facts]

def fn_part1 {F : FTy → Type} [FloatOps F] (main_v13 : IVec S_ 1) (main_v16 : IVec S32000x16 1) : IVec S_ 1 :=
  let main_c_5 : IVec S_ 1 := constantI S_ 1 1#1
  let main_v17 : IVec S_ 1 := (fun x v => Host.reduce IntOp.andi x v reducesTo_S32000x16_S_d0_1 h_S_) main_v16 main_c_5
  let main_v18 : IVec S_ 1 := andi main_v13 main_v17
  main_v18

def fn {F : FTy → Type} [FloatOps F] (main_arg0 : FVec F S2048x4096 .f32) (main_arg1 : FVec F S32000x4096 .f32) (main_arg2 : FVec F S16x4096 .f32) (main_arg3 : FVec F S32000x16 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S32000x4096 .f32 := Host.absf main_arg1
  let main_cst_0 : FVec F S_ .f32 := constant S_ .f32 0x7F800000#32
  let main_v5 : FVec F S32000x4096 .f32 := broadcastInDim S32000x4096 ![] bcast_S_S32000x4096 main_cst_0
  let main_v6 : IVec S32000x4096 1 := cmpf .olt main_v4 main_v5
  let main_c_1 : IVec S_ 1 := constantI S_ 1 1#1
  let main_v7 : IVec S_ 1 := (fun x v => Host.reduce IntOp.andi x v reducesTo_S32000x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S32000x16 .f32 := Host.absf main_arg3
  let main_cst_4 : FVec F S_ .f32 := constant S_ .f32 0x7F800000#32
  let main_v15 : FVec F S32000x16 .f32 := broadcastInDim S32000x16 ![] bcast_S_S32000x16 main_cst_4
  let main_v16 : IVec S32000x16 1 := cmpf .olt main_v14 main_v15
  fn_part1 (F := F) main_v13 main_v16
-- ==== Kernel.lean ====
abbrev S2048x4096 : Shape := ⟨2, ![2048, 4096]⟩
abbrev S32000x4096 : Shape := ⟨2, ![32000, 4096]⟩
abbrev S16x4096 : Shape := ⟨2, ![16, 4096]⟩
abbrev S32000x16 : Shape := ⟨2, ![32000, 16]⟩
abbrev S2048x16 : Shape := ⟨2, ![2048, 16]⟩
abbrev S2048x32000 : Shape := ⟨2, ![2048, 32000]⟩
abbrev S256x4096 : Shape := ⟨2, ![256, 4096]⟩
abbrev S640x4096 : Shape := ⟨2, ![640, 4096]⟩
abbrev S256x16 : Shape := ⟨2, ![256, 16]⟩
abbrev S640x16 : Shape := ⟨2, ![640, 16]⟩
abbrev S256x640 : Shape := ⟨2, ![256, 640]⟩

abbrev nBuf : Space → Nat
  | .hbm => 8
  | .vmem => 10
  | .smem => 0
  | _ => 0

abbrev bufTy : (tb : Table) → Fin (tcTables nBuf tb) → BufTy
  | .hbm, ⟨0, _⟩ => ⟨S2048x4096, .f32⟩
  | .hbm, ⟨1, _⟩ => ⟨S32000x4096, .f32⟩
  | .hbm, ⟨2, _⟩ => ⟨S16x4096, .f32⟩
  | .hbm, ⟨3, _⟩ => ⟨S32000x16, .f32⟩
  | .hbm, ⟨4, _⟩ => ⟨S2048x4096, .bf16⟩
  | .hbm, ⟨5, _⟩ => ⟨S16x4096, .bf16⟩
  | .hbm, ⟨6, _⟩ => ⟨S2048x16, .f32⟩
  | .hbm, ⟨7, _⟩ => ⟨S2048x32000, .f32⟩
  | .local _ .vmem, ⟨0, _⟩ => ⟨S256x4096, .bf16⟩
  | .local _ .vmem, ⟨1, _⟩ => ⟨S256x4096, .bf16⟩
  | .local _ .vmem, ⟨2, _⟩ => ⟨S640x4096, .f32⟩
  | .local _ .vmem, ⟨3, _⟩ => ⟨S640x4096, .f32⟩
  | .local _ .vmem, ⟨4, _⟩ => ⟨S256x16, .f32⟩
  | .local _ .vmem, ⟨5, _⟩ => ⟨S256x16, .f32⟩
  | .local _ .vmem, ⟨6, _⟩ => ⟨S640x16, .f32⟩
  | .local _ .vmem, ⟨7, _⟩ => ⟨S640x16, .f32⟩
  | .local _ .vmem, ⟨8, _⟩ => ⟨S256x640, .f32⟩
  | .local _ .vmem, ⟨9, _⟩ => ⟨S256x640, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![50, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S640x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S640x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S640x4096_S640x4096_0_0 : ∀ a, (![0, 0] : Fin 2 → Nat) a + S640x4096.size a ≤ S640x4096.size a
  h_S640x4096 : 0 < S640x4096.numel
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S640x16_S640x16_0_0 : ∀ a, (![0, 0] : Fin 2 → Nat) a + S640x16.size a ≤ S640x16.size a
  h_S640x16 : 0 < S640x16.numel
  inb_S256x640_S256x640_0_0 : ∀ a, (![0, 0] : Fin 2 → Nat) a + S256x640.size a ≤ S256x640.size a
  h_S256x640 : 0 < S256x640.numel
  dot_S2048x4096_S16x4096_S2048x16_1_1_0_0_n_n_wf : DotDims.WF S2048x4096 S16x4096 S2048x16 [1] [1] [0] [0] [] []
  dot_S256x4096_S640x4096_S256x640_1_1_0_0_n_n_wf : DotDims.WF S256x4096 S640x4096 S256x640 [1] [1] [0] [0] [] []
  dot_S256x16_S640x16_S256x640_1_1_0_0_n_n_wf : DotDims.WF S256x16 S640x16 S256x640 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S2048x4096.size a
  hwx0_0 : ∀ i : grid0.Coords, EltTy.bits .bf16 = 32 ∨ (Rect.block (s := S2048x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x4096.size a ≤ S32000x4096.size a
  hwx0_1 : ∀ i : grid0.Coords, EltTy.bits .f32 = 32 ∨ (Rect.block (s := S32000x4096) S640x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S2048x16.size a
  hwx0_2 : ∀ i : grid0.Coords, EltTy.bits .f32 = 32 ∨ (Rect.block (s := S2048x16) S256x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S640x16.size a ≤ S32000x16.size a
  hwx0_3 : ∀ i : grid0.Coords, EltTy.bits .f32 = 32 ∨ (Rect.block (s := S32000x16) S640x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x640.size a ≤ S2048x32000.size a
  hwx0_4 : ∀ i : grid0.Coords, EltTy.bits .f32 = 32 ∨ (Rect.block (s := S2048x32000) S256x640.size (cc0_transform_4 i) (hinb0_4 i)).WholeWords (EltTy.packing .f32)

variable [Facts₀]

def dot_S2048x4096_S16x4096_S2048x16_1_1_0_0_n_n : DotDims S2048x4096 S16x4096 S2048x16 where
  lhsContracting := [1]
  rhsContracting := [1]
  lhsNonContracting := [0]
  rhsNonContracting := [0]
  lhsBatch := []
  rhsBatch := []
  wf := dot_S2048x4096_S16x4096_S2048x16_1_1_0_0_n_n_wf
def dot_S256x4096_S640x4096_S256x640_1_1_0_0_n_n : DotDims S256x4096 S640x4096 S256x640 where
  lhsContracting := [1]
  rhsContracting := [1]
  lhsNonContracting := [0]
  rhsNonContracting := [0]
  lhsBatch := []
  rhsBatch := []
  wf := dot_S256x4096_S640x4096_S256x640_1_1_0_0_n_n_wf
def dot_S256x16_S640x16_S256x640_1_1_0_0_n_n : DotDims S256x16 S640x16 S256x640 where
  lhsContracting := [1]
  rhsContracting := [1]
  lhsNonContracting := [0]
  rhsNonContracting := [0]
  lhsBatch := []
  rhsBatch := []
  wf := dot_S256x16_S640x16_S256x640_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S640x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S640x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x640.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S32000x4096 : Shape := ⟨2, ![32000, 4096]⟩
abbrev S16x4096 : Shape := ⟨2, ![16, 4096]⟩
abbrev S32000x16 : Shape := ⟨2, ![32000, 16]⟩
abbrev S2048x32000 : Shape := ⟨2, ![2048, 32000]⟩
abbrev S2048x16 : Shape := ⟨2, ![2048, 16]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S32000x4096, .f32⟩
  | .hbm, ⟨2, _⟩ => ⟨S16x4096, .f32⟩
  | .hbm, ⟨3, _⟩ => ⟨S32000x16, .f32⟩
  | .hbm, ⟨4, _⟩ => ⟨S2048x32000, .f32⟩
  | .hbm, ⟨5, _⟩ => ⟨S2048x16, .f32⟩
  | .hbm, ⟨6, _⟩ => ⟨S2048x32000, .f32⟩
  | .hbm, ⟨7, _⟩ => ⟨S2048x32000, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  dot_S2048x4096_S32000x4096_S2048x32000_1_1_0_0_n_n_wf : DotDims.WF S2048x4096 S32000x4096 S2048x32000 [1] [1] [0] [0] [] []
  dot_S2048x4096_S16x4096_S2048x16_1_1_0_0_n_n_wf : DotDims.WF S2048x4096 S16x4096 S2048x16 [1] [1] [0] [0] [] []
  dot_S2048x16_S32000x16_S2048x32000_1_1_0_0_n_n_wf : DotDims.WF S2048x16 S32000x16 S2048x32000 [1] [1] [0] [0] [] []

variable [Facts₀]

def dot_S2048x4096_S32000x4096_S2048x32000_1_1_0_0_n_n : DotDims S2048x4096 S32000x4096 S2048x32000 where
  lhsContracting := [1]
  rhsContracting := [1]
  lhsNonContracting := [0]
  rhsNonContracting := [0]
  lhsBatch := []
  rhsBatch := []
  wf := dot_S2048x4096_S32000x4096_S2048x32000_1_1_0_0_n_n_wf
def dot_S2048x4096_S16x4096_S2048x16_1_1_0_0_n_n : DotDims S2048x4096 S16x4096 S2048x16 where
  lhsContracting := [1]
  rhsContracting := [1]
  lhsNonContracting := [0]
  rhsNonContracting := [0]
  lhsBatch := []
  rhsBatch := []
  wf := dot_S2048x4096_S16x4096_S2048x16_1_1_0_0_n_n_wf
def dot_S2048x16_S32000x16_S2048x32000_1_1_0_0_n_n : DotDims S2048x16 S32000x16 S2048x32000 where
  lhsContracting := [1]
  rhsContracting := [1]
  lhsNonContracting := [0]
  rhsNonContracting := [0]
  lhsBatch := []
  rhsBatch := []
  wf := dot_S2048x16_S32000x16_S2048x32000_1_1_0_0_n_n_wf

class Facts : Prop extends Facts₀ where

variable [Facts]
-- ==== Proof.Spec.lean ====
/-
  The function both programs compute, on the extended reals, index by index.

  With hidden states `x : [2048, 4096]`, head weights `w : [32000, 4096]`, a down-projection `a : [16, 4096]` and an
  up-projection `b : [32000, 16]`, the logit of token `n` for vocabulary entry `v` is

      Σ_k x[n,k] · w[v,k]  +  Σ_r (Σ_k x[n,k] · a[r,k]) · b[v,r]:

  the base product plus the rank-16 correction, the correction taken THROUGH the projected activations
  `u[n,r] = Σ_k x[n,k] · a[r,k]` (it is not re-associated: both programs form `u` first). Changes of float format
  are the identity on the extended reals, so nothing else enters. No law of the extended reals beyond the definitions is
  used, and in particular no finiteness.
-/
import Idealize.ShloMosaic.PureOps.Ideal
import Idealize.ShloMosaic.Lib.ValueIdx

noncomputable section

namespace Cert.LoraHead

open Idealize.ShloMosaic Idealize.ShloMosaic.ValueIdx

/-- The projected activation of token `n` on rank coordinate `r`: row `n` of the hidden states against row `r` of the
    down-projection. -/
def lowRankAt (x : (⟨2, ![2048, 4096]⟩ : Shape).Idx → EReal) (a : (⟨2, ![16, 4096]⟩ : Shape).Idx → EReal)
    (n : Fin 2048) (r : Fin 16) : EReal :=
  ∑ k : Fin 4096, x (ix2 n k) * a (ix2 r k)

/-- The projected activations as an array `[2048, 16]`. -/
def lowRank (x : (⟨2, ![2048, 4096]⟩ : Shape).Idx → EReal) (a : (⟨2, ![16, 4096]⟩ : Shape).Idx → EReal) :
    (⟨2, ![2048, 16]⟩ : Shape).Idx → EReal :=
  fun i => lowRankAt x a (i 0) (i 1)

/-- One logit from the hidden states `x`, the head weights `w`, ALREADY PROJECTED activations `u` and the up-projection
    `b`: row `n` of `x` against row `v` of `w`, plus row `n` of `u` against row `v` of `b`. -/
def headAt (x : (⟨2, ![2048, 4096]⟩ : Shape).Idx → EReal) (w : (⟨2, ![32000, 4096]⟩ : Shape).Idx → EReal)
    (u : (⟨2, ![2048, 16]⟩ : Shape).Idx → EReal) (b : (⟨2, ![32000, 16]⟩ : Shape).Idx → EReal)
    (n : Fin 2048) (v : Fin 32000) : EReal :=
  (∑ k : Fin 4096, x (ix2 n k) * w (ix2 v k)) + ∑ r : Fin 16, u (ix2 n r) * b (ix2 v r)

/-- The same as an array `[2048, 32000]`. -/
def head (x : (⟨2, ![2048, 4096]⟩ : Shape).Idx → EReal) (w : (⟨2, ![32000, 4096]⟩ : Shape).Idx → EReal)
    (u : (⟨2, ![2048, 16]⟩ : Shape).Idx → EReal) (b : (⟨2, ![32000, 16]⟩ : Shape).Idx → EReal) :
    (⟨2, ![2048, 32000]⟩ : Shape).Idx → EReal :=
  fun i => headAt x w u b (i 0) (i 1)

/-- THE RESULT: the logits of the four argument arrays. -/
def logits (x : (⟨2, ![2048, 4096]⟩ : Shape).Idx → EReal) (w : (⟨2, ![32000, 4096]⟩ : Shape).Idx → EReal)
    (a : (⟨2, ![16, 4096]⟩ : Shape).Idx → EReal) (b : (⟨2, ![32000, 16]⟩ : Shape).Idx → EReal) :
    (⟨2, ![2048, 32000]⟩ : Shape).Idx → EReal :=
  head x w (lowRank x a) b

theorem head_ix2 (x : (⟨2, ![2048, 4096]⟩ : Shape).Idx → EReal) (w : (⟨2, ![32000, 4096]⟩ : Shape).Idx → EReal)
    (u : (⟨2, ![2048, 16]⟩ : Shape).Idx → EReal) (b : (⟨2, ![32000, 16]⟩ : Shape).Idx → EReal) (n : Fin 2048) (v : Fin 32000) :
    head x w u b (ix2 n v) = headAt x w u b n v := rfl

theorem lowRank_ix2 (x : (⟨2, ![2048, 4096]⟩ : Shape).Idx → EReal) (a : (⟨2, ![16, 4096]⟩ : Shape).Idx → EReal)
    (n : Fin 2048) (r : Fin 16) : lowRank x a (ix2 n r) = lowRankAt x a n r := rfl

end Cert.LoraHead

end
-- ==== Proof.Reference.lean ====
/-
  The reference's result, read at an index, is the logits function of its arguments.

  The reference is three contractions and a sum: `x · wᵀ`, `u = x · aᵀ`, `u · bᵀ`, and their sum. Each contraction read at
  an output index is the sum over the one contracted coordinate of the products of the operands' entries on the row the
  output index names; written with explicit coordinates these are the sums of the specification.
-/
import proofs.«106763_j53128745452281_2_alg».proof.Proof.Gen.ReferenceIdeal.Read
import proofs.«106763_j53128745452281_2_alg».proof.Proof.Spec

noncomputable section

namespace Cert.ReferenceIdeal.RefValue

open Cert.ReferenceIdeal Cert.ReferenceIdeal.Read Idealize.ShloMosaic Idealize.ShloMosaic.ValueIdx Cert.LoraHead

/-! ## The operand indices of the three contractions, in coordinates -/

theorem lidx0 (i : S2048x32000.Idx) (k : Fin 4096) : lidx_main_v0 i k = ix2 (i 0) k :=
  funext fun a => Fin.ext (by match a with | ⟨0, _⟩ => rfl | ⟨1, _⟩ => rfl)
theorem ridx0 (i : S2048x32000.Idx) (k : Fin 4096) : ridx_main_v0 i k = ix2 (i 1) k :=
  funext fun a => Fin.ext (by match a with | ⟨0, _⟩ => rfl | ⟨1, _⟩ => rfl)
theorem lidx1 (i : S2048x16.Idx) (k : Fin 4096) : lidx_main_v1 i k = ix2 (i 0) k :=
  funext fun a => Fin.ext (by match a with | ⟨0, _⟩ => rfl | ⟨1, _⟩ => rfl)
theorem ridx1 (i : S2048x16.Idx) (k : Fin 4096) : ridx_main_v1 i k = ix2 (i 1) k :=
  funext fun a => Fin.ext (by match a with | ⟨0, _⟩ => rfl | ⟨1, _⟩ => rfl)
theorem lidx2 (i : S2048x32000.Idx) (r : Fin 16) : lidx_main_v2 i r = ix2 (i 0) r :=
  funext fun a => Fin.ext (by match a with | ⟨0, _⟩ => rfl | ⟨1, _⟩ => rfl)
theorem ridx2 (i : S2048x32000.Idx) (r : Fin 16) : ridx_main_v2 i r = ix2 (i 1) r :=
  funext fun a => Fin.ext (by match a with | ⟨0, _⟩ => rfl | ⟨1, _⟩ => rfl)

/-! ## The stages -/

/-- The projected activations the reference forms are the specification's. -/
theorem projected_eq (x : (⟨S2048x4096, .f32⟩ : BufTy).Contents (Elt Ideal)) (a : (⟨S16x4096, .f32⟩ : BufTy).Contents (Elt Ideal)) :
    val_main_v1 (F := Ideal) x a = lowRank x a := by
  funext i
  rw [val_main_v1_apply]
  simp only [lidx1, ridx1]
  rfl

/-- The reference's result is the logits of its arguments: the base product plus the product of the projected
    activations with the up-projection. -/
theorem result_eq (x : (⟨S2048x4096, .f32⟩ : BufTy).Contents (Elt Ideal)) (w : (⟨S32000x4096, .f32⟩ : BufTy).Contents (Elt Ideal))
    (a : (⟨S16x4096, .f32⟩ : BufTy).Contents (Elt Ideal)) (b : (⟨S32000x16, .f32⟩ : BufTy).Contents (Elt Ideal)) :
    val_main_v3 (F := Ideal) x w a b = logits x w a b := by
  funext i
  rw [val_main_v3_apply, val_main_v0_apply, val_main_v2_apply, projected_eq]
  simp only [lidx0, ridx0, lidx2, ridx2]
  rfl

end Cert.ReferenceIdeal.RefValue

end
-- ==== Proof.LibContractRows.lean ====
/-
  Rows against rows: the contraction `[M, K] × [N, K] → [M, N]` over the LAST axis of both operands, read at an index.

  For the dimension numbers "contract axis 1 with axis 1, no batch axis" (`DotDims.transposedRhs M K N`) the entry
  `(p, q)` of the product is `Σ_k l[p,k] · r[q,k]`: row `p` of the left operand against row `q` of the right one. The
  contraction's own index type has one axis of extent `K`; the sum is re-indexed over `Fin K` through that axis, and the
  operand indices the dimension numbers compute are then `(p, k)` and `(q, k)`. Stated for a matrix product into a zero
  accumulator and for the host's `dot_general`, on the extended reals, where both are that plain sum.
-/
import Idealize.ShloMosaic.PureOps.Ideal.Laws
import Idealize.ShloMosaic.Lib.ValueIdx

noncomputable section

namespace Idealize.ShloMosaic.ContractRows

open Idealize.ShloMosaic Idealize.ShloMosaic.ValueIdx

variable {M K N : Nat}

/-- The left operand's index keeps the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's index runs along its last axis with the contraction. -/
theorem lhs_col (j : (⟨2, ![M, N]⟩ : Shape).Idx) (k : (DotDims.transposedRhs M K N).contr.Idx) :
    ((DotDims.transposedRhs M K N).lhsIdx j k 1).val = (k ⟨0, Nat.zero_lt_one⟩).val :=
  (DotDims.transposedRhs M K N).lhsIdx_val_of_single rfl j k

/-- The right operand's index takes its row from the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's index runs along its last axis with the contraction. -/
theorem rhs_col (j : (⟨2, ![M, N]⟩ : Shape).Idx) (k : (DotDims.transposedRhs M K N).contr.Idx) :
    ((DotDims.transposedRhs M K N).rhsIdx j k 1).val = (k ⟨0, Nat.zero_lt_one⟩).val :=
  (DotDims.transposedRhs M K N).rhsIdx_val_of_single rfl j k

/-- THE SUM: over the contraction's index it is the sum over `k : Fin K` of row `p` against row `q`. -/
theorem sum_rows (l : (⟨2, ![M, K]⟩ : Shape).Idx → EReal) (r : (⟨2, ![N, K]⟩ : Shape).Idx → EReal) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

/-- A matrix product into the zero accumulator, rows against rows, at `(p, q)`. -/
theorem matmul_zero_apply {φ₁ φ₂ : FTy} (prec : Option ContractPrecision)
    (l : FVec Ideal (⟨2, ![M, K]⟩ : Shape) φ₁) (r : FVec Ideal (⟨2, ![N, K]⟩ : Shape) φ₂) (p : Fin M) (q : Fin N) :
    FloatOps.matmul (DotDims.transposedRhs M K N) prec l r (constant (⟨2, ![M, N]⟩ : Shape) .f32 0x00000000#32) (ix2 p q)
      = ∑ k : Fin K, l (ix2 p k) * r (ix2 q k) :=
  (Ideal.matmul_constant_zero_apply (DotDims.transposedRhs M K N) prec l r (ix2 p q)).trans (sum_rows l r p q)

/-- The host's `dot_general`, rows against rows, at `(p, q)`. -/
theorem dotGeneral_apply {φ₁ φ₂ : FTy} (prec : Option ContractPrecision) (sched : HostSchedule)
    (l : FVec Ideal (⟨2, ![M, K]⟩ : Shape) φ₁) (r : FVec Ideal (⟨2, ![N, K]⟩ : Shape) φ₂) (p : Fin M) (q : Fin N) :
    FloatOps.dotGeneral (DotDims.transposedRhs M K N) prec sched l r (ix2 p q) = ∑ k : Fin K, l (ix2 p k) * r (ix2 q k) :=
  (Ideal.dotGeneral_apply (DotDims.transposedRhs M K N) prec sched l r (ix2 p q)).trans (sum_rows l r p q)

end Idealize.ShloMosaic.ContractRows

end
-- ==== Proof.KernelEntry.lean ====
/-
  What the kernel's region finds in the two arrays the host part of the program wrote before it.

  Before the region the program narrows the hidden states and the down-projection to a shorter float format — the
  identity on the extended reals — and contracts them, rows against rows, into the projected activations. So the region
  finds the hidden states themselves in its first operand's array, and in its third operand's array the specification's
  projected activations `u[n,r] = Σ_k x[n,k] · a[r,k]`.
-/
import proofs.«106763_j53128745452281_2_alg».proof.Proof.Gen.KernelIdeal.Frame
import proofs.«106763_j53128745452281_2_alg».proof.Proof.Spec
import proofs.«106763_j53128745452281_2_alg».proof.Proof.LibContractRows
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.ValueIdx Cert.LoraHead

variable (m : (ℓ : Loc nD τ sig) → Buf (Elt Ideal) ℓ)

/-- The host contraction's dimension numbers are "rows against rows". -/
theorem proj_dims : dot_S2048x4096_S16x4096_S2048x16_1_1_0_0_n_n = DotDims.transposedRhs 2048 4096 16 := rfl

/-- The first operand's array at region entry is the hidden states: the narrowing is the identity. -/
theorem hidden_entry (c : Dev nD) :
    (V m c main_v0 : S2048x4096.Idx → EReal) = m ((c : Thread nD τ).loc main_arg0) := by
  dsimp only [Gen.V, Gen.hostOps0]; after_results; rfl

/-- The third operand's array at region entry, as the host operations' term. -/
theorem projected_term (c : Dev nD) :
    (V m c main_v2 : S2048x16.Idx → EReal)
      = Host.dotGeneral (F := Ideal) dot_S2048x4096_S16x4096_S2048x16_1_1_0_0_n_n none
          (truncf .bf16 (m ((c : Thread nD τ).loc main_arg0)) bitsLt_bf16_f32)
          (truncf .bf16 (m ((c : Thread nD τ).loc main_arg2)) bitsLt_bf16_f32) := by
  dsimp only [Gen.V, Gen.hostOps0]; after_results

/-- The third operand's array at region entry is the projected activations of the hidden states. -/
theorem projected_entry (c : Dev nD) :
    (V m c main_v2 : S2048x16.Idx → EReal)
      = lowRank (m ((c : Thread nD τ).loc main_arg0)) (m ((c : Thread nD τ).loc main_arg2)) := by
  rw [projected_term]
  funext i
  obtain ⟨n, r, rfl⟩ : ∃ (n : Fin 2048) (r : Fin 16), i = ix2 n r := ⟨i 0, i 1, eq_ix2 i⟩
  rw [lowRank_ix2]
  exact ContractRows.dotGeneral_apply none .single
    (truncf .bf16 (m ((c : Thread nD τ).loc main_arg0)) bitsLt_bf16_f32)
    (truncf .bf16 (m ((c : Thread nD τ).loc main_arg2)) bitsLt_bf16_f32) n r

end Cert.KernelIdeal.Entry

end
-- ==== Proof.Payload.lean ====
/-
  What the kernel's body computes at one grid point, entry by entry.

  The body has a block of 256 hidden-state rows, a block of 640 head-weight rows, the same 256 rows of the projected
  activations and the same 640 rows of the up-projection. It narrows three of them (the identity on the extended
  reals), forms two matrix products into zero accumulators, rows against rows, and adds them. So entry `(p, q)` of the
  block it stores is `Σ_k x[p,k] · w[q,k] + Σ_r u[p,r] · b[q,r]` of the blocks' own rows `p` and `q`.
-/
import proofs.«106763_j53128745452281_2_alg».proof.Proof.Gen.KernelIdeal.Skeleton
import proofs.«106763_j53128745452281_2_alg».proof.Proof.LibContractRows
import Idealize.ShloMosaic.Lib.Pipeline.Value

noncomputable section

namespace Cert.KernelIdeal.Body

open Cert.KernelIdeal Cert.KernelIdeal.Gen Idealize.ShloMosaic Idealize.ShloMosaic.ValueIdx

/-- Both products' dimension numbers are "rows against rows". -/
theorem base_dims : dot_S256x4096_S640x4096_S256x640_1_1_0_0_n_n = DotDims.transposedRhs 256 4096 640 := rfl
theorem corr_dims : dot_S256x16_S640x16_S256x640_1_1_0_0_n_n = DotDims.transposedRhs 256 16 640 := rfl

/-- Entry `(p, q)` of the stored block from the four loaded blocks. -/
theorem payload_apply (x : FVec Ideal S256x4096 .bf16) (w : FVec Ideal S640x4096 .f32) (u : FVec Ideal S256x16 .f32)
    (b : FVec Ideal S640x16 .f32) (p : Fin 256) (q : Fin 640) :
    k0_pay1 (F := Ideal) x w u b (ix2 p q)
      = (∑ k : Fin 4096, x (ix2 p k) * w (ix2 q k)) + ∑ r : Fin 16, u (ix2 p r) * b (ix2 q r) := by
  unfold k0_pay1
  simp only [shapeCast_self]
  refine (addf_apply _ _ (ix2 p q)).trans ?_
  refine congrArg₂ (· + ·) ?_ ?_
  · exact ContractRows.matmul_zero_apply none x (truncf .bf16 w bitsLt_bf16_f32) p q
  · exact ContractRows.matmul_zero_apply none (truncf .bf16 u bitsLt_bf16_f32) (truncf .bf16 b bitsLt_bf16_f32) p q

end Cert.KernelIdeal.Body

end
-- ==== Proof.Blocks.lean ====
/-
  From the blocks the grid points write to the whole result array.

  The grid has 50 × 8 points; point `t` works on row block `t mod 8` (256 token rows) and column block `t div 8`
  (640 vocabulary rows). It reads rows `256·(t mod 8) + p` of the hidden states and of the projected activations, rows
  `640·(t div 8) + q` of the head weights and of the up-projection — whole rows: the contracted axis is not tiled —,
  and writes entry `(p, q)` of its block to entry `(256·(t mod 8) + p, 640·(t div 8) + q)` of the result. An entry
  of the result depends only on ITS token's row and ITS vocabulary entry's row, so what a point writes is exactly that
  block of the one whole-array function `head`; the 400 blocks tile the array, so the array ends holding `head` of the
  arrays the region found, which are the hidden states, the head weights, the projected activations and the
  up-projection: the logits.
-/
import proofs.«106763_j53128745452281_2_alg».proof.Proof.Gen.KernelIdeal.Value
import proofs.«106763_j53128745452281_2_alg».proof.Proof.KernelEntry
import proofs.«106763_j53128745452281_2_alg».proof.Proof.Payload

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.LoraHead

variable (m : (ℓ : Loc nD τ sig) → Buf (Elt Ideal) ℓ) (ρ : Dev nD → PrngReg)

theorem hz : (![0, 0] : Fin 2 → Nat) = fun _ => 0 := funext fun a => by fin_cases a <;> rfl

/-! ## One entry of one block -/

/-- If the loaded blocks' rows `y 0` and `y 1` are rows `i 0` and `i 1` of four arrays, the body's entry `y` is `head`
    of those arrays at `i`. -/
theorem entry_eq (X : S2048x4096.Idx → EReal) (W : S32000x4096.Idx → EReal) (U : S2048x16.Idx → EReal)
    (B : S32000x16.Idx → EReal)
    (x : FVec Ideal S256x4096 .bf16) (w : FVec Ideal S640x4096 .f32) (u : FVec Ideal S256x16 .f32) (b : FVec Ideal S640x16 .f32)
    (y : S256x640.Idx) (i : S2048x32000.Idx)
    (hx : ∀ k : Fin 4096, x (ix2 (y 0) k) = X (ix2 (i 0) k))
    (hw : ∀ k : Fin 4096, w (ix2 (y 1) k) = W (ix2 (i 1) k))
    (hu : ∀ r : Fin 16, u (ix2 (y 0) r) = U (ix2 (i 0) r))
    (hb : ∀ r : Fin 16, b (ix2 (y 1) r) = B (ix2 (i 1) r)) :
    k0_pay1 (F := Ideal) x w u b y = head X W U B i := by
  obtain ⟨p, q, rfl⟩ : ∃ (p : Fin 256) (q : Fin 640), y = ix2 p q := ⟨y 0, y 1, eq_ix2 y⟩
  rw [Body.payload_apply]
  show _ = (∑ k : Fin 4096, X (ix2 (i 0) k) * W (ix2 (i 1) k)) + ∑ r : Fin 16, U (ix2 (i 0) r) * B (ix2 (i 1) r)
  exact congrArg₂ (· + ·)
    (Finset.sum_congr rfl fun k _ => congrArg₂ (· * ·) (hx k) (hw k))
    (Finset.sum_congr rfl fun r _ => congrArg₂ (· * ·) (hu r) (hb r))

/-! ## Where each window's block sits -/

/-- The printed index maps, decided over the 400 grid points: the output's block is (`t mod 8`, `t div 8`); the hidden
    states and the projected activations move with its rows, the head weights and the up-projection with its columns,
    and none is tiled along its last axis. -/
theorem idx_facts : ∀ t : Fin cfg0.N,
    win0_4.index t (0 : Fin 2) = t.val % 8 ∧ win0_4.index t (1 : Fin 2) = t.val / 8
    ∧ win0_0.index t (0 : Fin 2) = t.val % 8 ∧ win0_0.index t (1 : Fin 2) = 0
    ∧ win0_1.index t (0 : Fin 2) = t.val / 8 ∧ win0_1.index t (1 : Fin 2) = 0
    ∧ win0_2.index t (0 : Fin 2) = t.val % 8 ∧ win0_2.index t (1 : Fin 2) = 0
    ∧ win0_3.index t (0 : Fin 2) = t.val / 8 ∧ win0_3.index t (1 : Fin 2) = 0 :=
  (by decide +kernel : ∀ t : Fin grid0.N, _)

/-- Row `y 0` of the hidden-state block at point `t` is row `256·(t mod 8) + y 0` of the array the region found. -/
theorem hidden_block (c : Dev nD) (t : Fin cfg0.N) (y : S256x4096.Idx) (i : S2048x4096.Idx)
    (h0 : (i 0).val = t.val % 8 * 256 + (y 0).val) (h1 : (i 1).val = (y 1).val) :
    (iblk m c 0 t : FVec Ideal S256x4096 .bf16) y = (V m c main_v0 : S2048x4096.Idx → EReal) i := by
  obtain ⟨-, -, e0, e1, -⟩ := idx_facts t
  unfold iblk
  rw [View.read_apply]
  show V m c main_v0 _ = V m c main_v0 _
  refine congrArg (V m c main_v0) ?_
  funext a
  apply Fin.ext
  match a with
  | ⟨0, _⟩ => show win0_0.index t (0 : Fin 2) * 256 + 1 * (y 0).val = (i 0).val; rw [e0, h0]; omega
  | ⟨1, _⟩ => show win0_0.index t (1 : Fin 2) * 4096 + 1 * (y 1).val = (i 1).val; rw [e1, h1]; omega

/-- Row `y 0` of the head-weight block at point `t` is row `640·(t div 8) + y 0` of the weights. -/
theorem weight_block (c : Dev nD) (t : Fin cfg0.N) (y : S640x4096.Idx) (i : S32000x4096.Idx)
    (h0 : (i 0).val = t.val / 8 * 640 + (y 0).val) (h1 : (i 1).val = (y 1).val) :
    (iblk m c 1 t : FVec Ideal S640x4096 .f32) y = (V m c main_arg1 : S32000x4096.Idx → EReal) i := by
  obtain ⟨-, -, -, -, e0, e1, -⟩ := idx_facts t
  unfold iblk
  rw [View.read_apply]
  show V m c main_arg1 _ = V m c main_arg1 _
  refine congrArg (V m c main_arg1) ?_
  funext a
  apply Fin.ext
  match a with
  | ⟨0, _⟩ => show win0_1.index t (0 : Fin 2) * 640 + 1 * (y 0).val = (i 0).val; rw [e0, h0]; omega
  | ⟨1, _⟩ => show win0_1.index t (1 : Fin 2) * 4096 + 1 * (y 1).val = (i 1).val; rw [e1, h1]; omega

/-- Row `y 0` of the projected-activation block at point `t` is row `256·(t mod 8) + y 0` of the array the region found. -/
theorem projected_block (c : Dev nD) (t : Fin cfg0.N) (y : S256x16.Idx) (i : S2048x16.Idx)
    (h0 : (i 0).val = t.val % 8 * 256 + (y 0).val) (h1 : (i 1).val = (y 1).val) :
    (iblk m c 2 t : FVec Ideal S256x16 .f32) y = (V m c main_v2 : S2048x16.Idx → EReal) i := by
  obtain ⟨-, -, -, -, -, -, e0, e1, -⟩ := idx_facts t
  unfold iblk
  rw [View.read_apply]
  show V m c main_v2 _ = V m c main_v2 _
  refine congrArg (V m c main_v2) ?_
  funext a
  apply Fin.ext
  match a with
  | ⟨0, _⟩ => show win0_2.index t (0 : Fin 2) * 256 + 1 * (y 0).val = (i 0).val; rw [e0, h0]; omega
  | ⟨1, _⟩ => show win0_2.index t (1 : Fin 2) * 16 + 1 * (y 1).val = (i 1).val; rw [e1, h1]; omega

/-- Row `y 0` of the up-projection block at point `t` is row `640·(t div 8) + y 0` of the up-projection. -/
theorem up_block (c : Dev nD) (t : Fin cfg0.N) (y : S640x16.Idx) (i : S32000x16.Idx)
    (h0 : (i 0).val = t.val / 8 * 640 + (y 0).val) (h1 : (i 1).val = (y 1).val) :
    (iblk m c 3 t : FVec Ideal S640x16 .f32) y = (V m c main_arg3 : S32000x16.Idx → EReal) i := by
  obtain ⟨-, -, -, -, -, -, -, -, e0, e1⟩ := idx_facts t
  unfold iblk
  rw [View.read_apply]
  show V m c main_arg3 _ = V m c main_arg3 _
  refine congrArg (V m c main_arg3) ?_
  funext a
  apply Fin.ext
  match a with
  | ⟨0, _⟩ => show win0_3.index t (0 : Fin 2) * 640 + 1 * (y 0).val = (i 0).val; rw [e0, h0]; omega
  | ⟨1, _⟩ => show win0_3.index t (1 : Fin 2) * 16 + 1 * (y 1).val = (i 1).val; rw [e1, h1]; omega

/-! ## What a point writes back, and the whole array -/

/-- WHAT POINT `t` WRITES BACK is block `t` of `head` of the four arrays the region found. -/
theorem flushed_eq (c : Dev nD) (t : Fin cfg0.N) :
    (dats m 0 c).flushed 4 t = ((cfg0.win 4).blk t).view.read (Elt Ideal)
      (head (V m c main_v0) (V m c main_arg1) (V m c main_v2) (V m c main_arg3)) := by
  rw [Value.flushed4]
  unfold out0_4
  rw [View.canon_unit_zero hz]
  simp only [View.ld_unit_zero (S := S256x4096) hz, View.ld_unit_zero (S := S640x4096) hz,
    View.ld_unit_zero (S := S256x16) hz, View.ld_unit_zero (S := S640x16) hz]
  obtain ⟨e0, e1, -⟩ := idx_facts t
  funext j
  have o0 : ((((cfg0.win 4).blk t).view.emb j) 0).val = t.val % 8 * 256 + (j 0).val := by
    show win0_4.index t (0 : Fin 2) * 256 + 1 * (j 0).val = _; rw [e0]; omega
  have o1 : ((((cfg0.win 4).blk t).view.emb j) 1).val = t.val / 8 * 640 + (j 1).val := by
    show win0_4.index t (1 : Fin 2) * 640 + 1 * (j 1).val = _; rw [e1]; omega
  exact entry_eq (V m c main_v0) (V m c main_arg1) (V m c main_v2) (V m c main_arg3)
    (iblk m c 0 t) (iblk m c 1 t) (iblk m c 2 t) (iblk m c 3 t) j (((cfg0.win 4).blk t).view.emb j)
    (fun k => hidden_block m c t (ix2 (j 0) k) (ix2 ((((cfg0.win 4).blk t).view.emb j) 0) k) o0 rfl)
    (fun k => weight_block m c t (ix2 (j 1) k) (ix2 ((((cfg0.win 4).blk t).view.emb j) 1) k) o1 rfl)
    (fun r => projected_block m c t (ix2 (j 0) r) (ix2 ((((cfg0.win 4).blk t).view.emb j) 0) r) o0 rfl)
    (fun r => up_block m c t (ix2 (j 1) r) (ix2 ((((cfg0.win 4).blk t).view.emb j) 1) r) o1 rfl)

/-- An index of the result is in point `t`'s block iff each coordinate is in the block's range on its axis. -/
theorem mem_blk (t : Fin cfg0.N) (i : S2048x32000.Idx) :
    i ∈ ((cfg0.win 4).blk t).view.set ↔ ∀ a : Fin 2, win0_4.index t a * S256x640.size a ≤ (i a).val ∧ (i a).val < win0_4.index t a * S256x640.size a + S256x640.size a := by
  show i ∈ ((View.whole main_v3).slice (win0_4.rect t)).set ↔ _
  rw [View.set_slice_whole, Rect.mem_set_unit]
  exact Iff.rfl

/-- THE BLOCKS TILE THE RESULT: entry `(n, v)` is in the block of the point with row block `n div 256` and column block
    `v div 640`. -/
theorem cover (i : S2048x32000.Idx) :
    ∃ t : Fin cfg0.N, (cfg0.win 4).flush t = true ∧ i ∈ ((cfg0.win 4).blk t).view.set := by
  have hi0 : (i 0).val < 2048 := (i 0).isLt
  have hi1 : (i 1).val < 32000 := (i 1).isLt
  have hN : grid0.N = 400 := N_0
  have hlt : (i 1).val / 640 * 8 + (i 0).val / 256 < cfg0.N := by
    show _ < grid0.N; rw [hN]; omega
  obtain ⟨e0, e1, -⟩ := idx_facts ⟨(i 1).val / 640 * 8 + (i 0).val / 256, hlt⟩
  refine ⟨⟨(i 1).val / 640 * 8 + (i 0).val / 256, hlt⟩, flush0_4 _, ?_⟩
  rw [mem_blk]
  intro a
  match a with
  | ⟨0, _⟩ =>
    show win0_4.index ⟨(i 1).val / 640 * 8 + (i 0).val / 256, hlt⟩ (0 : Fin 2) * 256 ≤ (i 0).val
      ∧ (i 0).val < win0_4.index ⟨(i 1).val / 640 * 8 + (i 0).val / 256, hlt⟩ (0 : Fin 2) * 256 + 256
    rw [e0]; show ((i 1).val / 640 * 8 + (i 0).val / 256) % 8 * 256 ≤ (i 0).val ∧ (i 0).val < ((i 1).val / 640 * 8 + (i 0).val / 256) % 8 * 256 + 256
    omega
  | ⟨1, _⟩ =>
    show win0_4.index ⟨(i 1).val / 640 * 8 + (i 0).val / 256, hlt⟩ (1 : Fin 2) * 640 ≤ (i 1).val
      ∧ (i 1).val < win0_4.index ⟨(i 1).val / 640 * 8 + (i 0).val / 256, hlt⟩ (1 : Fin 2) * 640 + 640
    rw [e1]; show ((i 1).val / 640 * 8 + (i 0).val / 256) / 8 * 640 ≤ (i 1).val ∧ (i 1).val < ((i 1).val / 640 * 8 + (i 0).val / 256) / 8 * 640 + 640
    omega

/-- THE RESULT ARRAY after the run: `head` of the arrays the region found. -/
theorem final_found (c : Dev nD) :
    (dats m 0 c).arrAt 4 cfg0.N = head (V m c main_v0) (V m c main_arg1) (V m c main_v2) (V m c main_arg3) :=
  (dats m 0 c).arrAt_eq_of_cover 4 (head (V m c main_v0) (V m c main_arg1) (V m c main_v2) (V m c main_arg3))
    (fun t _ => flushed_eq m c t) cover

/-- THE RESULT ARRAY after the run: the logits of the argument arrays as launched. -/
theorem final (c : Dev nD) :
    (dats m 0 c).arrAt 4 cfg0.N
      = logits (m ((c : Thread nD τ).loc main_arg0)) (m ((c : Thread nD τ).loc main_arg1))
          (m ((c : Thread nD τ).loc main_arg2)) (m ((c : Thread nD τ).loc main_arg3)) := by
  rw [final_found, Entry.hidden_entry, Entry.projected_entry, V_main_arg1, V_main_arg3]
  rfl

/-- The kernel's run, read: the result array at the logits of the arguments, the arguments unchanged. -/
theorem run : θ_run defs (onTc (τ := τ) (main (F := Ideal))) ⟨m, fun _ => 0, ρ⟩ fun r => ∀ c : Dev nD,
      r.2.mem ((c : Thread nD τ).loc main_v3)
        = logits (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Blocks

end
-- ==== Proof.lean ====
/-
  A language-model head with a low-rank correction: the kernel against its plain reference, on the extended reals.

  Both programs take hidden states `x : [2048, 4096]`, head weights `w : [32000, 4096]`, a down-projection
  `a : [16, 4096]` and an up-projection `b : [32000, 16]`, and both return the logits

      out[n,v] = Σ_k x[n,k] · w[v,k] + Σ_r u[n,r] · b[v,r],     u[n,r] = Σ_k x[n,k] · a[r,k].

  The reference does it with three whole contractions and a sum. The kernel forms `u` on the host, then tiles the
  result into 8 × 50 blocks of 256 × 640 entries; each grid point multiplies its 256 rows of `x` against its 640 rows
  of `w`, its 256 rows of `u` against its 640 rows of `b`, and adds. The contracted axes are never tiled, so each
  entry is computed by ONE point from the same rows, with the same grouping of the sums, as in the reference: the two
  results are the same function term by term, and no law of the extended reals (and no finiteness) is needed. The
  narrowings to a shorter float format that the kernel applies are the identity on the extended reals.

  The pieces: `Spec` states the logits; `Reference` reads the reference's result as the logits; `KernelEntry` reads
  the arrays the kernel's host part leaves for the region; `Payload` reads one entry of one block; `Blocks` places the
  blocks in the result array and reads the kernel's run. Here the five claims are assembled.
-/
import proofs.«106763_j53128745452281_2_alg».proof.Defs
import proofs.«106763_j53128745452281_2_alg».proof.Proof.Gen.Kernel
import proofs.«106763_j53128745452281_2_alg».proof.Proof.Gen.Kernel.Frame
import proofs.«106763_j53128745452281_2_alg».proof.Proof.Gen.KernelIdeal
import proofs.«106763_j53128745452281_2_alg».proof.Proof.Gen.KernelIdeal.Frame
import proofs.«106763_j53128745452281_2_alg».proof.Proof.Gen.KernelIdeal.Value
import proofs.«106763_j53128745452281_2_alg».proof.Proof.Gen.ReferenceIdeal
import proofs.«106763_j53128745452281_2_alg».proof.Proof.Gen.ReferenceIdeal.Run
import proofs.«106763_j53128745452281_2_alg».proof.Proof.Gen.ReferenceIdeal.Read
import proofs.«106763_j53128745452281_2_alg».proof.Proof.Gen.Pre_finite_inputs
import proofs.«106763_j53128745452281_2_alg».proof.Proof.Reference
import proofs.«106763_j53128745452281_2_alg».proof.Proof.Blocks

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run read back, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- From memories agreeing on the four arguments both programs end with the logits of those arguments in their result
    arrays: the kernel block by block, the reference by its three contractions and the sum. -/
theorem algebraic : Cert.algebraic_KernelIdeal_ReferenceIdeal := by
  intro m ρ m' ρ' _ hagree
  refine ⟨fun c => Cert.LoraHead.logits
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
